-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S1 : Shape := ⟨1, ![1]⟩
abbrev S40 : Shape := ⟨1, ![40]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S32x3x512x512 .f32) (main_arg1 : FVec F S1 .f32) (main_arg2 : IVec S40 32) (main_arg3 : IVec S40 32) (main_arg4 : IVec S40 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S32x3x512x512 : Shape := ⟨4, ![32, 3, 512, 512]⟩
abbrev S1 : Shape := ⟨1, ![1]⟩
abbrev S40 : Shape := ⟨1, ![40]⟩
abbrev S_ : Shape := ⟨0, ![]⟩
abbrev S512 : Shape := ⟨1, ![512]⟩
abbrev S1x512 : Shape := ⟨2, ![1, 512]⟩
abbrev S40x1 : Shape := ⟨2, ![40, 1]⟩
abbrev S40x512 : Shape := ⟨2, ![40, 512]⟩
abbrev S512x512 : Shape := ⟨2, ![512, 512]⟩
abbrev S2x3x512x512 : Shape := ⟨4, ![2, 3, 512, 512]⟩
abbrev S1x1x512x512 : Shape := ⟨4, ![1, 1, 512, 512]⟩

abbrev nBuf : Space → Nat
  | .hbm => 50
  | .vmem => 5
  | .smem => 0
  | _ => 0

abbrev bufTy : (tb : Table) → Fin (tcTables nBuf tb) → BufTy
  | .hbm, ⟨0, _⟩ => ⟨S32x3x512x512, .f32⟩
  | .hbm, ⟨1, _⟩ => ⟨S1, .f32⟩
  | .hbm, ⟨2, _⟩ => ⟨S40, .i32⟩
  | .hbm, ⟨3, _⟩ => ⟨S40, .i32⟩
  | .hbm, ⟨4, _⟩ => ⟨S40, .i32⟩
  | .hbm, ⟨5, _⟩ => ⟨S_, .f32⟩
  | .hbm, ⟨6, _⟩ => ⟨S_, .i32⟩
  | .hbm, ⟨7, _⟩ => ⟨S40, .i32⟩
  | .hbm, ⟨8, _⟩ => ⟨S40, .i32⟩
  | .hbm, ⟨9, _⟩ => ⟨S512, .i32⟩
  | .hbm, ⟨10, _⟩ => ⟨S512, .i32⟩
  | .hbm, ⟨11, _⟩ => ⟨S1x512, .i32⟩
  | .hbm, ⟨12, _⟩ => ⟨S40x1, .i32⟩
  | .hbm, ⟨13, _⟩ => ⟨S40x512, .i32⟩
  | .hbm, ⟨14, _⟩ => ⟨S40x512, .i32⟩
  | .hbm, ⟨15, _⟩ => ⟨S40x512, .i1⟩
  | .hbm, ⟨16, _⟩ => ⟨S1x512, .i32⟩
  | .hbm, ⟨17, _⟩ => ⟨S40x1, .i32⟩
  | .hbm, ⟨18, _⟩ => ⟨S40x512, .i32⟩
  | .hbm, ⟨19, _⟩ => ⟨S40x512, .i32⟩
  | .hbm, ⟨20, _⟩ => ⟨S40x512, .i1⟩
  | .hbm, ⟨21, _⟩ => ⟨S40x512, .i1⟩
  | .hbm, ⟨22, _⟩ => ⟨S_, .i32⟩
  | .hbm, ⟨23, _⟩ => ⟨S40, .i32⟩
  | .hbm, ⟨24, _⟩ => ⟨S40, .i32⟩
  | .hbm, ⟨25, _⟩ => ⟨S_, .i32⟩
  | .hbm, ⟨26, _⟩ => ⟨S40, .i32⟩
  | .hbm, ⟨27, _⟩ => ⟨S40, .i32⟩
  | .hbm, ⟨28, _⟩ => ⟨S1x512, .i32⟩
  | .hbm, ⟨29, _⟩ => ⟨S40x1, .i32⟩
  | .hbm, ⟨30, _⟩ => ⟨S40x512, .i32⟩
  | .hbm, ⟨31, _⟩ => ⟨S40x512, .i32⟩
  | .hbm, ⟨32, _⟩ => ⟨S40x512, .i1⟩
  | .hbm, ⟨33, _⟩ => ⟨S1x512, .i32⟩
  | .hbm, ⟨34, _⟩ => ⟨S_, .i32⟩
  | .hbm, ⟨35, _⟩ => ⟨S40, .i32⟩
  | .hbm, ⟨36, _⟩ => ⟨S40, .i32⟩
  | .hbm, ⟨37, _⟩ => ⟨S40x1, .i32⟩
  | .hbm, ⟨38, _⟩ => ⟨S40x512, .i32⟩
  | .hbm, ⟨39, _⟩ => ⟨S40x512, .i32⟩
  | .hbm, ⟨40, _⟩ => ⟨S40x512, .i1⟩
  | .hbm, ⟨41, _⟩ => ⟨S40x512, .i1⟩
  | .hbm, ⟨42, _⟩ => ⟨S40x512, .f32⟩
  | .hbm, ⟨43, _⟩ => ⟨S40x512, .f32⟩
  | .hbm, ⟨44, _⟩ => ⟨S512x512, .f32⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S32x3x512x512, .f32⟩
  | .local _ .vmem, ⟨0, _⟩ => ⟨S2x3x512x512, .f32⟩
  | .local _ .vmem, ⟨1, _⟩ => ⟨S2x3x512x512, .f32⟩
  | .local _ .vmem, ⟨2, _⟩ => ⟨S512x512, .f32⟩
  | .local _ .vmem, ⟨3, _⟩ => ⟨S2x3x512x512, .f32⟩
  | .local _ .vmem, ⟨4, _⟩ => ⟨S2x3x512x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1_S_ : S1.ShapeCasts S_
  bcast_S_S40 : S_.BroadcastsInDim S40 (![] : Fin 0 → Fin S40.rank)
  bcast_S512_S1x512_1 : S512.BroadcastsInDim S1x512 (![1] : Fin 1 → Fin S1x512.rank)
  bcast_S40_S40x1_0 : S40.BroadcastsInDim S40x1 (![0] : Fin 1 → Fin S40x1.rank)
  bcast_S1x512_S40x512_0_1 : S1x512.BroadcastsInDim S40x512 (![0, 1] : Fin 2 → Fin S40x512.rank)
  bcast_S40x1_S40x512_0_1 : S40x1.BroadcastsInDim S40x512 (![0, 1] : Fin 2 → Fin S40x512.rank)
  bcast_S_S512x512 : S_.BroadcastsInDim S512x512 (![] : Fin 0 → Fin S512x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2x3x512x512_S2x3x512x512_0_0_0_0 : ∀ a, (![0, 0, 0, 0] : Fin 4 → Nat) a + S2x3x512x512.size a ≤ S2x3x512x512.size a
  h_S2x3x512x512 : 0 < S2x3x512x512.numel
  shapeCasts_S512x512_S1x1x512x512 : S512x512.ShapeCasts S1x1x512x512
  broadcasts_S1x1x512x512_S2x3x512x512 : S1x1x512x512.Broadcasts S2x3x512x512
  dot_S40x512_S40x512_S512x512_0_0_1_1_n_n_wf : DotDims.WF S40x512 S40x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512x512.size a ≤ S32x3x512x512.size a
  hwx0_0 : ∀ i : grid0.Coords, EltTy.bits .f32 = 32 ∨ (Rect.block (s := S32x3x512x512) S2x3x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x3x512x512.size a ≤ S32x3x512x512.size a
  hwx0_2 : ∀ i : grid0.Coords, EltTy.bits .f32 = 32 ∨ (Rect.block (s := S32x3x512x512) S2x3x512x512.size (cc0_transform_2 i) (hinb0_2 i)).WholeWords (EltTy.packing .f32)

variable [Facts₀]

def dot_S40x512_S40x512_S512x512_0_0_1_1_n_n : DotDims S40x512 S40x512 S512x512 where
  lhsContracting := [0]
  rhsContracting := [0]
  lhsNonContracting := [1]
  rhsNonContracting := [1]
  lhsBatch := []
  rhsBatch := []
  wf := dot_S40x512_S40x512_S512x512_0_0_1_1_n_n_wf

abbrev win0_0 : Pipeline.Window sig grid0 :=
  Pipeline.Window.ofSpec (Memref.whole main_arg0) S2x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S1 : Shape := ⟨1, ![1]⟩
abbrev S40 : Shape := ⟨1, ![40]⟩
abbrev S_ : Shape := ⟨0, ![]⟩
abbrev S512 : Shape := ⟨1, ![512]⟩
abbrev S1x512 : Shape := ⟨2, ![1, 512]⟩
abbrev S40x1 : Shape := ⟨2, ![40, 1]⟩
abbrev S40x512 : Shape := ⟨2, ![40, 512]⟩
abbrev S512x512 : Shape := ⟨2, ![512, 512]⟩
abbrev S1x1x512x512 : Shape := ⟨4, ![1, 1, 512, 512]⟩

abbrev nBuf : Space → Nat
  | .hbm => 66
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S1, .f32⟩
  | .hbm, ⟨2, _⟩ => ⟨S40, .i32⟩
  | .hbm, ⟨3, _⟩ => ⟨S40, .i32⟩
  | .hbm, ⟨4, _⟩ => ⟨S40, .i32⟩
  | .hbm, ⟨5, _⟩ => ⟨S_, .f32⟩
  | .hbm, ⟨6, _⟩ => ⟨S_, .i32⟩
  | .hbm, ⟨7, _⟩ => ⟨S40, .i32⟩
  | .hbm, ⟨8, _⟩ => ⟨S40, .i32⟩
  | .hbm, ⟨9, _⟩ => ⟨S512, .i32⟩
  | .hbm, ⟨10, _⟩ => ⟨S512, .i32⟩
  | .hbm, ⟨11, _⟩ => ⟨S1x512, .i32⟩
  | .hbm, ⟨12, _⟩ => ⟨S40x1, .i32⟩
  | .hbm, ⟨13, _⟩ => ⟨S40x512, .i32⟩
  | .hbm, ⟨14, _⟩ => ⟨S40x512, .i32⟩
  | .hbm, ⟨15, _⟩ => ⟨S40x512, .i1⟩
  | .hbm, ⟨16, _⟩ => ⟨S1x512, .i32⟩
  | .hbm, ⟨17, _⟩ => ⟨S40x1, .i32⟩
  | .hbm, ⟨18, _⟩ => ⟨S40x512, .i32⟩
  | .hbm, ⟨19, _⟩ => ⟨S40x512, .i32⟩
  | .hbm, ⟨20, _⟩ => ⟨S40x512, .i1⟩
  | .hbm, ⟨21, _⟩ => ⟨S40x512, .i1⟩
  | .hbm, ⟨22, _⟩ => ⟨S_, .i32⟩
  | .hbm, ⟨23, _⟩ => ⟨S40, .i32⟩
  | .hbm, ⟨24, _⟩ => ⟨S40, .i32⟩
  | .hbm, ⟨25, _⟩ => ⟨S_, .i32⟩
  | .hbm, ⟨26, _⟩ => ⟨S40, .i32⟩
  | .hbm, ⟨27, _⟩ => ⟨S40, .i32⟩
  | .hbm, ⟨28, _⟩ => ⟨S1x512, .i32⟩
  | .hbm, ⟨29, _⟩ => ⟨S40x1, .i32⟩
  | .hbm, ⟨30, _⟩ => ⟨S40x512, .i32⟩
  | .hbm, ⟨31, _⟩ => ⟨S40x512, .i32⟩
  | .hbm, ⟨32, _⟩ => ⟨S40x512, .i1⟩
  | .hbm, ⟨33, _⟩ => ⟨S1x512, .i32⟩
  | .hbm, ⟨34, _⟩ => ⟨S_, .i32⟩
  | .hbm, ⟨35, _⟩ => ⟨S40, .i32⟩
  | .hbm, ⟨36, _⟩ => ⟨S40, .i32⟩
  | .hbm, ⟨37, _⟩ => ⟨S40x1, .i32⟩
  | .hbm, ⟨38, _⟩ => ⟨S40x512, .i32⟩
  | .hbm, ⟨39, _⟩ => ⟨S40x512, .i32⟩
  | .hbm, ⟨40, _⟩ => ⟨S40x512, .i1⟩
  | .hbm, ⟨41, _⟩ => ⟨S40x512, .i1⟩
  | .hbm, ⟨42, _⟩ => ⟨S40x512, .f32⟩
  | .hbm, ⟨43, _⟩ => ⟨S40x512, .f32⟩
  | .hbm, ⟨44, _⟩ => ⟨S512x512, .f32⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S1x1x512x512, .f32⟩
  | .hbm, ⟨50, _⟩ => ⟨S32x3x512x512, .f32⟩
  | .hbm, ⟨51, _⟩ => ⟨S32x3x512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S1x1x512x512, .f32⟩
  | .hbm, ⟨56, _⟩ => ⟨S32x3x512x512, .f32⟩
  | .hbm, ⟨57, _⟩ => ⟨S32x3x512x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32x3x512x512, .f32⟩
  | .hbm, ⟨62, _⟩ => ⟨S32x3x512x512, .f32⟩
  | .hbm, ⟨63, _⟩ => ⟨S_, .f32⟩
  | .hbm, ⟨64, _⟩ => ⟨S32x3x512x512, .f32⟩
  | .hbm, ⟨65, _⟩ => ⟨S32x3x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  shapeCasts_S1_S_ : S1.ShapeCasts S_
  bcast_S_S40 : S_.BroadcastsInDim S40 (![] : Fin 0 → Fin S40.rank)
  bcast_S512_S1x512_1 : S512.BroadcastsInDim S1x512 (![1] : Fin 1 → Fin S1x512.rank)
  bcast_S40_S40x1_0 : S40.BroadcastsInDim S40x1 (![0] : Fin 1 → Fin S40x1.rank)
  bcast_S1x512_S40x512_0_1 : S1x512.BroadcastsInDim S40x512 (![0, 1] : Fin 2 → Fin S40x512.rank)
  bcast_S40x1_S40x512_0_1 : S40x1.BroadcastsInDim S40x512 (![0, 1] : Fin 2 → Fin S40x512.rank)
  bcast_S_S512x512 : S_.BroadcastsInDim S512x512 (![] : Fin 0 → Fin S512x512.rank)
  bcast_S512x512_S1x1x512x512_2_3 : S512x512.BroadcastsInDim S1x1x512x512 (![2, 3] : Fin 2 → Fin S1x1x512x512.rank)
  bcast_S1x1x512x512_S32x3x512x512_0_1_2_3 : S1x1x512x512.BroadcastsInDim S32x3x512x512 (![0, 1, 2, 3] : Fin 4 → Fin S32x3x512x512.rank)
  bcast_S_S32x3x512x512 : S_.BroadcastsInDim S32x3x512x512 (![] : Fin 0 → Fin S32x3x512x512.rank)
  dot_S40x512_S40x512_S512x512_0_0_1_1_n_n_wf : DotDims.WF S40x512 S40x512 S512x512 [0] [0] [1] [1] [] []

variable [Facts₀]

def dot_S40x512_S40x512_S512x512_0_0_1_1_n_n : DotDims S40x512 S40x512 S512x512 where
  lhsContracting := [0]
  rhsContracting := [0]
  lhsNonContracting := [1]
  rhsNonContracting := [1]
  lhsBatch := []
  rhsBatch := []
  wf := dot_S40x512_S40x512_S512x512_0_0_1_1_n_n_wf

class Facts : Prop extends Facts₀ where

variable [Facts]
-- ==== Proof.Blend.lean ====
/-
  The blend, as one function of two arrays.

  An image batch `x` of shape [32, 3, 512, 512] is attenuated by a factor map `f` of shape [512, 512] that
  depends on the pixel (h, w) alone, and clamped to the unit interval:

      blend x f (b, c, h, w) = min 1 (max 0 (x (b, c, h, w) · f (h, w) + (1 − f (h, w)))).

  Both programs compute exactly this expression, operation for operation, with the same float words for
  0 and 1; they differ only in how the map `f` is carried to the image's shape. So the function is stated
  once, over any float values, and no law of arithmetic is needed to join the two sides.
-/
import Idealize.ShloMosaic.PureOps
import Idealize.ShloMosaic.Lib.ValueIdx

noncomputable section

namespace Cert.Blend

open Idealize.ShloMosaic

/-- The image batch's shape, the factor map's shape, and one block of two images. -/
abbrev Img : Shape := ⟨4, ![32, 3, 512, 512]⟩
abbrev Plane : Shape := ⟨2, ![512, 512]⟩
abbrev Pair : Shape := ⟨4, ![2, 3, 512, 512]⟩

/-- The pixel (h, w) under an image index (b, c, h, w). -/
abbrev pixel (i : Img.Idx) : Plane.Idx := fun a => match a with
  | ⟨0, _⟩ => ⟨(i 2).val, (i 2).isLt⟩
  | ⟨1, _⟩ => ⟨(i 3).val, (i 3).isLt⟩

variable {F : FTy → Type} [FloatOps F]

/-- One element of the blend: `min 1 (max 0 (v · g + (1 − g)))`, the words of 1 and 0 as the programs spell them. -/
def mix (v g : F .f32) : F .f32 :=
  FloatOps.minimumf (FloatOps.ofBits .f32 0x3F800000#32)
    (FloatOps.maximumf (FloatOps.ofBits .f32 0x00000000#32)
      (FloatOps.addf (FloatOps.mulf v g) (FloatOps.subf (FloatOps.ofBits .f32 0x3F800000#32) g)))

/-- The blend of an image batch with a factor map, index by index. -/
def blend (x : FVec F Img .f32) (f : FVec F Plane .f32) : FVec F Img .f32 :=
  fun i => mix (x i) (f (pixel i))

theorem blend_apply (x : FVec F Img .f32) (f : FVec F Plane .f32) (i : Img.Idx) :
    blend x f i = mix (x i) (f (pixel i)) := rfl

end Cert.Blend

end
-- ==== Proof.RefBlend.lean ====
/-
  The reference computes the blend.

  After its factor map `f = (1 − α) ^ K` (the stage the reference names its value 38) the reference program lifts `f`
  and `1 − f` to the image's shape by two broadcasts each — [512, 512] to [1, 1, 512, 512] to
  [32, 3, 512, 512] — multiplies, adds, and clamps through an outlined `clip` (a maximum against a
  broadcast 0, then a minimum against a broadcast 1). Read at an index (b, c, h, w), every broadcast
  reads its operand at the pixel (h, w) or at the one scalar, so the result is the blend of the
  image batch with that factor map.
-/
import proofs.«178783_j16106127360108_2_alg».proof.Proof.Gen.ReferenceIdeal.Read
import proofs.«178783_j16106127360108_2_alg».proof.Proof.Blend

noncomputable section

namespace Cert.RefBlend

open Idealize.ShloMosaic Cert.ReferenceIdeal Cert.ReferenceIdeal.Read Cert.Blend

variable {F : FTy → Type} [FloatOps F]

/-- The two broadcasts that lift the factor map read it at the pixel under the image index. -/
theorem lift_factor (i : S32x3x512x512.Idx) : idx_main_v39 (idx_main_v40 i) = pixel i :=
  funext fun a => match a with | ⟨0, _⟩ => rfl | ⟨1, _⟩ => rfl

/-- So do the two that lift its complement. -/
theorem lift_complement (i : S32x3x512x512.Idx) : idx_main_v44 (idx_main_v45 i) = pixel i :=
  funext fun a => match a with | ⟨0, _⟩ => rfl | ⟨1, _⟩ => rfl

/-- The reference's result, as a function of its arguments, is the blend of the image batch with its own
    factor map. -/
theorem result_eq (x0 : (⟨S32x3x512x512, .f32⟩ : BufTy).Contents (Elt F)) (x1 : (⟨S1, .f32⟩ : BufTy).Contents (Elt F))
    (x2 x3 x4 : (⟨S40, .i32⟩ : BufTy).Contents (Elt F)) :
    val_main_v47 (F := F) x0 x1 x2 x3 x4 = blend x0 (val_main_v38 (F := F) x1 x2 x3 x4) := by
  funext i
  rw [val_main_v47_apply, val_main_call0_v4_apply, val_main_call0_v3_apply, val_main_cst_5_apply,
    val_main_call0_v2_apply, val_main_call0_v1_apply, val_main_call0_v0_apply, val_main_cst_4_apply,
    val_main_v46_apply, val_main_v41_apply, val_main_v40_apply, val_main_v39_apply,
    val_main_v45_apply, val_main_v44_apply, val_main_v43_apply, val_main_v42_apply, val_main_cst_3_apply,
    lift_factor, lift_complement]
  rfl

end Cert.RefBlend

end
-- ==== Proof.KernelBlock.lean ====
/-
  One block of the kernel's result, and the array the blocks make up.

  At grid point `t` the kernel holds images 2t and 2t + 1 (a [2, 3, 512, 512] block of the batch) and the
  whole [512, 512] factor map. Its body multiplies the images by the map and adds the map's complement,
  both spread over the block's two leading axes, then clamps. Read at a block index (p, c, h, w) that is the
  mix of the image element there with the map's element at (h, w).

  The block of images at point `t` sits at batch offset 2t of the array, where the output block is written
  back, and the map's one block is the whole map; so what point `t` writes back is block `t` of the blend of
  the two arrays as the launch finds them. The sixteen blocks tile the batch axis, hence the array after
  the run is that blend.
-/
import proofs.«178783_j16106127360108_2_alg».proof.Proof.Gen.KernelIdeal.Value
import proofs.«178783_j16106127360108_2_alg».proof.Proof.Blend

noncomputable section

namespace Cert.KernelBlock

open Idealize.ShloMosaic Idealize.ShloMosaic.TcCoe Idealize.SL.Sem
open Cert.KernelIdeal Cert.KernelIdeal.Gen Cert.Blend
open Idealize.ShloMosaic.Pipeline (Dat)

variable {F : FTy → Type} [FloatOps F]
variable (m : (ℓ : Loc nD τ sig) → Buf (Elt F) ℓ)

/-! ## The body's result at a block index -/

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The pixel (h, w) under a block index (p, c, h, w). -/
abbrev blockPixel (y : S2x3x512x512.Idx) : S512x512.Idx := fun a => match a with
  | ⟨0, _⟩ => ⟨(y 2).val, (y 2).isLt⟩
  | ⟨1, _⟩ => ⟨(y 3).val, (y 3).isLt⟩

/-- The image operand is read at the block index itself, -/
theorem read_image (y : S2x3x512x512.Idx) : Value.ix2_0 y = y :=
  funext fun a => match a with | ⟨0, _⟩ => rfl | ⟨1, _⟩ => rfl | ⟨2, _⟩ => rfl | ⟨3, _⟩ => rfl

/-- and the map, in both its uses, at the pixel under it. -/
theorem read_map (y : S2x3x512x512.Idx) : Value.ix2_1 y = blockPixel y :=
  funext fun a => match a with | ⟨0, _⟩ => rfl | ⟨1, _⟩ => rfl
theorem read_map' (y : S2x3x512x512.Idx) : Value.ix2_2 y = blockPixel y :=
  funext fun a => match a with | ⟨0, _⟩ => rfl | ⟨1, _⟩ => rfl

/-- What the body leaves in the output block, from a block of images `x0` and the map `x1`, read at a block
    index: the mix of the image element with the map at the pixel. -/
theorem block_apply (x0 : Vec F S2x3x512x512 .f32) (x1 : Vec F S512x512 .f32) (y : S2x3x512x512.Idx) :
    out0_2 x0 x1 y = mix (x0 y) (x1 (blockPixel y)) := by
  unfold out0_2
  rw [View.ld_unit_zero zeros2, View.ld_unit_zero zeros4, Value.canon2_eq]
  show FloatOps.minimumf _ (FloatOps.maximumf _ (FloatOps.addf (FloatOps.mulf (x0 (Value.ix2_0 y)) (x1 (Value.ix2_1 y)))
    (FloatOps.subf _ (x1 (Value.ix2_2 y))))) = _
  rw [read_image, read_map, read_map']
  rfl

end Cert.KernelBlock

end
-- ==== Proof.KernelArray.lean ====
/-
  From the sixteen blocks to the whole array.

  Output block `t` covers images 2t and 2t + 1 of the batch and all of the other three axes; the block of
  images the body reads at point `t` sits at the same place, and the factor map's only block is the whole
  map. Hence what point `t` writes back is block `t` of the blend of the image array with the map as the
  launch finds them, and since every image index b lies in block b / 2, the array after the run is that blend.
-/
import proofs.«178783_j16106127360108_2_alg».proof.Proof.KernelBlock

noncomputable section

namespace Cert.KernelArray

open Idealize.ShloMosaic Idealize.ShloMosaic.TcCoe Idealize.SL.Sem
open Cert.KernelIdeal Cert.KernelIdeal.Gen Cert.Blend Cert.KernelBlock
open Idealize.ShloMosaic.Pipeline (Dat)

variable {F : FTy → Type} [FloatOps F]
variable (m : (ℓ : Loc nD τ sig) → Buf (Elt F) ℓ)

/-- Where the three windows' blocks sit at each of the sixteen points (decided over the grid): the image block and
    the output block at batch offset `t` blocks and nowhere else displaced, the map's block at the origin. -/
theorem block_places : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

/-- WHAT POINT `t` WRITES BACK is block `t` of the blend of the image array with the factor map, both as the
    launch finds them. -/
theorem flushed_eq (c : Dev nD) (t : Fin cfg0.N) :
    (dats m 0 c).flushed 2 t
      = ((cfg0.win 2).blk t).view.read (Elt F) (blend (V m c main_arg0) (V m c main_v38)) := by
  rw [Value.flushed2]
  obtain ⟨a0, a1, a2, a3, b0, b1, o0, o1, o2, o3⟩ := block_places t
  funext j
  have hj0 : (j 0).val < 2 := (j 0).isLt
  have hj1 : (j 1).val < 3 := (j 1).isLt
  have hj2 : (j 2).val < 512 := (j 2).isLt
  have hj3 : (j 3).val < 512 := (j 3).isLt
  show out0_2 (iblk m c 0 t) (iblk m c 1 t) j = mix (V m c main_arg0 (((cfg0.win 2).blk t).view.emb j))
    (V m c main_v38 (pixel (((cfg0.win 2).blk t).view.emb j)))
  rw [block_apply]
  show mix (V m c main_arg0 (((cfg0.win 0).blk t).view.emb j)) (V m c main_v38 (((cfg0.win 1).blk t).view.emb (blockPixel j))) = _
  have himg : ((cfg0.win 0).blk t).view.emb j = ((cfg0.win 2).blk t).view.emb j := by
    funext a; apply Fin.ext
    match a with
    | ⟨0, _⟩ => show win0_0.index t (0 : Fin 4) * 2 + 1 * (j 0).val = win0_2.index t (0 : Fin 4) * 2 + 1 * (j 0).val; omega
    | ⟨1, _⟩ => show win0_0.index t (1 : Fin 4) * 3 + 1 * (j 1).val = win0_2.index t (1 : Fin 4) * 3 + 1 * (j 1).val; omega
    | ⟨2, _⟩ => show win0_0.index t (2 : Fin 4) * 512 + 1 * (j 2).val = win0_2.index t (2 : Fin 4) * 512 + 1 * (j 2).val; omega
    | ⟨3, _⟩ => show win0_0.index t (3 : Fin 4) * 512 + 1 * (j 3).val = win0_2.index t (3 : Fin 4) * 512 + 1 * (j 3).val; omega
  have hmap : ((cfg0.win 1).blk t).view.emb (blockPixel j) = pixel (((cfg0.win 2).blk t).view.emb j) := by
    funext a; apply Fin.ext
    match a with
    | ⟨0, _⟩ => show win0_1.index t (0 : Fin 2) * 512 + 1 * (j 2).val = win0_2.index t (2 : Fin 4) * 512 + 1 * (j 2).val; omega
    | ⟨1, _⟩ => show win0_1.index t (1 : Fin 2) * 512 + 1 * (j 3).val = win0_2.index t (3 : Fin 4) * 512 + 1 * (j 3).val; omega
  rw [himg, hmap]

/-- An index of the array is in point `t`'s output block iff each coordinate is in the block's range on its axis. -/
theorem mem_blk (t : Fin cfg0.N) (i : S32x3x512x512.Idx) :
    i ∈ ((cfg0.win 2).blk t).view.set ↔ ∀ a : Fin 4, win0_2.index t a * S2x3x512x512.size a ≤ (i a).val
      ∧ (i a).val < win0_2.index t a * S2x3x512x512.size a + S2x3x512x512.size a := by
  show i ∈ ((View.whole main_v39).slice (win0_2.rect t)).set ↔ _
  rw [View.set_slice_whole, Rect.mem_set_unit]
  exact Iff.rfl

/-- Every index of the array is in the output block of the point that holds its pair of images. -/
theorem covered (i : S32x3x512x512.Idx) :
    ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 512 := (i 2).isLt
  have hi3 : (i 3).val < 512 := (i 3).isLt
  have hN : grid0.N = 16 := N_0
  let t : Fin cfg0.N := ⟨(i 0).val / 2, by show (i 0).val / 2 < grid0.N; omega⟩
  obtain ⟨_, _, _, _, _, _, o0, o1, o2, o3⟩ := block_places t
  have ht : t.val = (i 0).val / 2 := rfl
  refine ⟨t, flush0_2 t, ?_⟩
  rw [mem_blk]
  intro a
  match a with
  | ⟨0, _⟩ => show win0_2.index t (0 : Fin 4) * 2 ≤ (i 0).val ∧ (i 0).val < win0_2.index t (0 : Fin 4) * 2 + 2; omega
  | ⟨1, _⟩ => show win0_2.index t (1 : Fin 4) * 3 ≤ (i 1).val ∧ (i 1).val < win0_2.index t (1 : Fin 4) * 3 + 3; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE ARRAY after the run is the blend of the image array with the factor map as the launch finds them. -/
theorem final (c : Dev nD) :
    (dats m 0 c).arrAt 2 cfg0.N = blend (V m c main_arg0) (V m c main_v38) :=
  (dats m 0 c).arrAt_eq_of_cover 2 _ (fun t _ => flushed_eq m c t) covered

end Cert.KernelArray

end
-- ==== Proof.Factor.lean ====
/-
  The factor map is one function of the arguments in both programs.

  Before the launch the kernel's program builds the factor map `f = (1 − α) ^ K` on the host: `K (h, w)` counts the
  streaks whose row range holds h and whose column range holds w (a contraction over the forty streaks of
  two 0/1 masks), and the power is taken element by element. The reference builds its map by the same
  forty-five host operations in the same order, on the same arguments. So the array the launch finds in the
  map's buffer is the reference's factor stage applied to the kernel's own arguments: the two terms are
  the same expression, and nothing of it needs to be opened.
-/
import proofs.«178783_j16106127360108_2_alg».proof.Proof.Gen.KernelIdeal.Frame
import proofs.«178783_j16106127360108_2_alg».proof.Proof.Gen.ReferenceIdeal.Read
import Idealize.ShloMosaic.Lib.StableHlo.Run

noncomputable section

namespace Cert.Factor

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- The factor map as the launch finds it is the reference's factor stage of the kernel's arguments. -/
theorem launch_factor (c : Dev nD) :
    (V m c main_v38 : S512x512.Idx → F .f32)
      = Cert.ReferenceIdeal.Read.val_main_v38 (F := F) (m ((c.tc : Thread nD τ).loc main_arg1))
          (m ((c.tc : Thread nD τ).loc main_arg2)) (m ((c.tc : Thread nD τ).loc main_arg3))
          (m ((c.tc : Thread nD τ).loc main_arg4)) := by
  dsimp only [Gen.V, Gen.hostOps0]
  after_results_simp
  rfl

end Cert.Factor

end
-- ==== Proof.lean ====
/-
  Rain streaks: a batch of images blended with a factor map and clamped, as a tiled kernel and as plain
  array code.

  Both programs first build, from the streak parameters, the overlap count `K (h, w)` of the streaks over each
  pixel and the factor map `f = (1 − α) ^ K`, by the same host operations on the same arguments. The kernel's
  program then hands the images and the map to a kernel that walks the batch two images at a time and writes
  `min 1 (max 0 (x · f + (1 − f)))` block by block; the reference spreads `f` and `1 − f` over the batch and
  computes the same expression on whole arrays. At the extended reals both results are the blend of the image
  batch with the factor map (Proof/Blend.lean), index by index:

    * the kernel's sixteen blocks make up that blend of the arrays the launch finds (Proof/KernelBlock.lean,
      Proof/KernelArray.lean), and the map it finds is the reference's factor stage of the same arguments
      (Proof/Factor.lean);
    * the reference's result is that blend of its image argument with its factor stage (Proof/RefBlend.lean).

  No law of arithmetic is used — the two sides are the same expression at every index — so the finiteness of
  the inputs is never opened. The three programs run, and leave their arguments alone, by their generated
  frame and run theorems; the idealized kernel is the kernel's own text, so nothing is owed for it.
-/
import proofs.«178783_j16106127360108_2_alg».proof.Defs
import proofs.«178783_j16106127360108_2_alg».proof.Proof.Gen.Kernel
import proofs.«178783_j16106127360108_2_alg».proof.Proof.Gen.Kernel.Frame
import proofs.«178783_j16106127360108_2_alg».proof.Proof.Gen.KernelIdeal
import proofs.«178783_j16106127360108_2_alg».proof.Proof.Gen.KernelIdeal.Frame
import proofs.«178783_j16106127360108_2_alg».proof.Proof.Gen.KernelIdeal.Value
import proofs.«178783_j16106127360108_2_alg».proof.Proof.Gen.ReferenceIdeal
import proofs.«178783_j16106127360108_2_alg».proof.Proof.Gen.ReferenceIdeal.Run
import proofs.«178783_j16106127360108_2_alg».proof.Proof.Gen.ReferenceIdeal.Read
import proofs.«178783_j16106127360108_2_alg».proof.Proof.Gen.Pre_finite_inputs
import proofs.«178783_j16106127360108_2_alg».proof.Proof.Blend
import proofs.«178783_j16106127360108_2_alg».proof.Proof.RefBlend
import proofs.«178783_j16106127360108_2_alg».proof.Proof.KernelArray
import proofs.«178783_j16106127360108_2_alg».proof.Proof.Factor
import Idealize.ShloMosaic.Adequacy
import Idealize.ShloMosaic.Init

noncomputable section

namespace Cert.Proof

open Idealize.ShloMosaic Idealize.ShloMosaic.TcCoe Idealize.SL.Sem

/-- The kernel's program, as printed, runs and leaves its arguments as launched. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the reading at the extended reals. -/
theorem preserves : Cert.preserves_Kernel_KernelIdeal := trivial

/-- From memories that agree on the arguments both programs end at the blend of the image batch with the factor
    map of the streak parameters: the kernel by its blocks, the reference by its whole-array expression. -/
theorem algebraic : Cert.algebraic_KernelIdeal_ReferenceIdeal := by
  intro m ρ m' ρ' _ hagree
  refine ⟨fun c => Cert.Blend.blend (F := Ideal) (m ((c.tc : Thread Cert.KernelIdeal.nD Cert.KernelIdeal.τ).loc Cert.KernelIdeal.main_arg0))
      (Cert.ReferenceIdeal.Read.val_main_v38 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))), ?_, ?_⟩
  · refine (θ_run Cert.KernelIdeal.defs _ _).mono (fun r h c => ⟨(h c).1.trans ?_, (h c).2⟩)
      (Cert.KernelIdeal.Value.run_blocks (F := Ideal) m ρ)
    rw [Cert.KernelArray.final, Cert.KernelIdeal.Gen.V_main_arg0, Cert.Factor.launch_factor]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, Cert.RefBlend.result_eq, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
